-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel

variable [Facts]

def fn {F : FTy → Type} [FloatOps F] (main_arg0 : FVec F S64x256x64x64 .f32) (main_arg1 : FVec F S64x256x64x64 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  let main_v4 : FVec F S64x256x64x64 .f32 := Host.absf main_arg1
  let main_cst_0 : FVec F S_ .f32 := constant S_ .f32 0x7F800000#32
  let main_v5 : FVec F S64x256x64x64 .f32 := broadcastInDim S64x256x64x64 ![] bcast_S_S64x256x64x64 main_cst_0
  let main_v6 : IVec S64x256x64x64 1 := cmpf .olt main_v4 main_v5
  let main_c_1 : IVec S_ 1 := constantI S_ 1 1#1
  let main_v7 : IVec S_ 1 := (fun x v => Host.reduce IntOp.andi x v reducesTo_S64x256x64x64_S_d0_1_2_3 h_S_) main_v6 main_c_1
  let main_v8 : IVec S_ 1 := andi main_v3 main_v7
  main_v8
-- ==== Kernel.lean ====
abbrev S64x256x64x64 : Shape := ⟨4, ![64, 256, 64, 64]⟩
abbrev S16384x4096 : Shape := ⟨2, ![16384, 4096]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S64x256x64x64, .f32⟩
  | .hbm, ⟨1, _⟩ => ⟨S64x256x64x64, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S64x256x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x256x64x64_S16384x4096 : S64x256x64x64.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S16384x4096_S64x256x64x64 : S16384x4096.ShapeCasts S64x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x256x64x64 : Shape := ⟨4, ![64, 256, 64, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S64x256x64x64, .f32⟩
  | .hbm, ⟨1, _⟩ => ⟨S64x256x64x64, .f32⟩
  | .hbm, ⟨2, _⟩ => ⟨S64x256x64x64, .f32⟩
  | .hbm, ⟨3, _⟩ => ⟨S_, .f32⟩
  | .hbm, ⟨4, _⟩ => ⟨S64x256x64x64, .f32⟩
  | .hbm, ⟨5, _⟩ => ⟨S64x256x64x64, .f32⟩
  | .hbm, ⟨6, _⟩ => ⟨S64x256x64x64, .f32⟩
  | .hbm, ⟨7, _⟩ => ⟨S64x256x64x64, .f32⟩
  | .hbm, ⟨8, _⟩ => ⟨S_, .f32⟩
  | .hbm, ⟨9, _⟩ => ⟨S64x256x64x64, .f32⟩
  | .hbm, ⟨10, _⟩ => ⟨S64x256x64x64, .f32⟩
  | .hbm, ⟨11, _⟩ => ⟨S_, .f32⟩
  | .hbm, ⟨12, _⟩ => ⟨S64x256x64x64, .f32⟩
  | .hbm, ⟨13, _⟩ => ⟨S64x256x64x64, .f32⟩
  | .hbm, ⟨14, _⟩ => ⟨S64x256x64x64, .f32⟩
  | .hbm, ⟨15, _⟩ => ⟨S64x256x64x64, .f32⟩
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S64x256x64x64 : S_.BroadcastsInDim S64x256x64x64 (![] : Fin 0 → Fin S64x256x64x64.rank)

variable [Facts₀]

class Facts : Prop extends Facts₀ where

variable [Facts]
-- ==== Proof.GateLaw.lean ====
/-
  The scalar law behind this certificate, on the extended reals.

  Both programs compute, entry by entry, a residual gated by a sigmoid: with `g = σ(2·(x·m))`,
  one program forms `x · (1 + g)` and the other `x + x · g`. The sigmoid is the same function on both
  sides: `σ z = 1 / (1 + e^(-z))`, which is how the one-operation logistic is defined and how the other
  program spells it out, so `g` is literally one term.

  What joins the two arrangements is left distributivity, `x · (1 + g) = x · 1 + x · g`. On the extended
  reals that law fails in general (take `x < 0` against `⊤ + ⊥`), but it holds whenever the multiplier
  `x` is a finite real and one summand is the real `1`, WHATEVER the other summand `g` is:
    * `g` real: everything is real, and the law is the field's;
    * `g = ⊤`: `1 + ⊤ = ⊤`, and `x · ⊤` is `⊤`, `0` or `⊥` as `x` is positive, zero or negative, while
      `x + x · ⊤` is `x + ⊤ = ⊤`, `0 + 0 = 0`, `x + ⊥ = ⊥` in the same three cases;
    * `g = ⊥`: symmetric.
  So only the finiteness of `x` is used; nothing is asked of `m`.
-/
import Idealize.ShloMosaic.PureOps.Ideal

noncomputable section

namespace Cert.GateLaw

open Idealize.ShloMosaic

/-- The binary32 word `0x3F800000` denotes the real number one. -/
theorem one_word : (Ideal.ofBits .f32 0x3F800000#32 : EReal) = 1 := by
  simp [Ideal.ofBits, Ideal.ieee, -EReal.coe_mul]
  norm_num

/-- A finite real distributes over `1 + g` for every extended real `g`, infinite ones included. -/
theorem coe_mul_one_add (r : ℝ) (g : EReal) : (r : EReal) * (1 + g) = (r : EReal) + (r : EReal) * g := by
  induction g using EReal.rec with
  | bot =>
    rw [EReal.add_bot]
    rcases lt_trichotomy r 0 with h | h | h
    · rw [EReal.coe_mul_bot_of_neg h, EReal.coe_add_top]
    · subst h; simp
    · rw [EReal.coe_mul_bot_of_pos h, EReal.add_bot]
  | coe s =>
    rw [← EReal.coe_one, ← EReal.coe_add, ← EReal.coe_mul, ← EReal.coe_mul, ← EReal.coe_add]
    congr 1; ring
  | top =>
    rw [EReal.add_top_of_ne_bot (show (1 : EReal) ≠ ⊥ from EReal.coe_ne_bot 1)]
    rcases lt_trichotomy r 0 with h | h | h
    · rw [EReal.coe_mul_top_of_neg h, EReal.add_bot]
    · subst h; simp
    · rw [EReal.coe_mul_top_of_pos h, EReal.coe_add_top]

/-- The gated residual in the first arrangement: `x · (1 + σ(2·(x·m)))`, the constants as their binary32 words. -/
def gatedProd (x m : EReal) : EReal :=
  x * ((Ideal.ofBits .f32 0x3F800000#32 : EReal)
        + Ideal.logistic ((Ideal.ofBits .f32 0x40000000#32 : EReal) * (x * m)))

/-- The gated residual in the second arrangement: `x + x · (1 / (1 + e^(-(2·(x·m)))))`, the sigmoid spelt out. -/
def gatedSum (x m : EReal) : EReal :=
  x + x * Ideal.div (Ideal.ofBits .f32 0x3F800000#32 : EReal)
        ((Ideal.ofBits .f32 0x3F800000#32 : EReal)
          + Ideal.exp (-((Ideal.ofBits .f32 0x40000000#32 : EReal) * (x * m))))

/-- At a finite `x` the two arrangements agree, for every `m`. -/
theorem gatedSum_eq_gatedProd (r : ℝ) (m : EReal) : gatedSum r m = gatedProd r m := by
  unfold gatedSum gatedProd
  rw [one_word, coe_mul_one_add]
  rfl

end Cert.GateLaw

end
-- ==== Proof.FiniteFirst.lean ====
/-
  What the precondition gives: every entry of the first argument array is a finite real.

  The precondition is the conjunction of two `all`-reductions, one per argument, each over the entrywise test
  `|x| < +∞`, the bound spelt as the binary32 word `0x7F800000`. The conjunction being one, each reduction is one;
  a reduction by `and` into a single result that is one had a one at every entry; and on the extended reals
  `max x (-x) < ⊤` rules out both infinities (`max ⊤ ⊥ = ⊤` and `max ⊥ ⊤ = ⊤`), leaving a real.
  Only the first argument's half is needed by the algebra.
-/
import proofs.«127270_j38783554683569_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteFirst

open Idealize.ShloMosaic Cert.Pre_finite_inputs

/-- The empty shape has exactly one index. -/
instance : Subsingleton S_.Idx := ⟨fun _ _ => funext fun d => d.elim0⟩

/-- The binary32 word `0x7F800000` denotes `+∞`. -/
theorem inf_word : (Ideal.ofBits .f32 0x7F800000#32 : EReal) = ⊤ := by
  simp [Ideal.ofBits, Ideal.ieee]

/-- An extended real whose absolute value tests strictly below `+∞` is a real. -/
theorem real_of_abs_lt (x : EReal)
    (h : Ideal.cmp .olt (max x (-x)) (Ideal.ofBits .f32 0x7F800000#32 : EReal) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every entry of the first argument is a real. -/
theorem first_real [Cert.Pre_finite_inputs.Facts] (x y : FVec Ideal S64x256x64x64 .f32)
    (h : Cert.Pre_finite_inputs.fn (F := Ideal) x y = fun _ => 1#1) (i : S64x256x64x64.Idx) :
    ∃ r : ℝ, x i = (r : EReal) := by
  have h0 := congrFun h ValueIdx.ix0
  dsimp only [Cert.Pre_finite_inputs.fn, andi] at h0
  obtain ⟨hx, -⟩ := IntOp.andi_eq_one.1 h0
  have hi := Host.reduce_andi_all _ _ _ _ _ hx i
  exact real_of_abs_lt (x i) hi

end Cert.FiniteFirst

end
-- ==== Proof.ReferenceGated.lean ====
/-
  The reference's result, entry by entry.

  The reference works on the four-axis arrays directly and every one of its operations acts entry by entry (the three
  scalar constants are broadcast from the one-entry shape). Reading its last stage at a position `i` through the
  stages before it gives `x i + x i · (1 / (1 + e^(-(2·(x i · m i)))))`: the second arrangement of the gated
  residual. Where `x i` is a finite real that is the first arrangement, `x i · (1 + σ(2·(x i · m i)))`, by the
  distributive law that holds for a finite multiplier.
-/
import proofs.«127270_j38783554683569_2_alg».proof.Proof.Gen.ReferenceIdeal.Read
import proofs.«127270_j38783554683569_2_alg».proof.Proof.GateLaw

noncomputable section

namespace Cert.ReferenceIdeal.Gated

open Cert.ReferenceIdeal Cert.ReferenceIdeal.Read Idealize.ShloMosaic

/-- The reference's result at a position is the gated residual, sigmoid spelt out, of the two arguments' entries there. -/
theorem result_apply (x y : (⟨S64x256x64x64, .f32⟩ : BufTy).Contents (Elt Ideal)) (i : S64x256x64x64.Idx) :
    val_main_v10 (F := Ideal) x y i = Cert.GateLaw.gatedSum (x i) (y i) := by
  rw [val_main_v10_apply, val_main_v9_apply, val_main_v8_apply, val_main_v7_apply, val_main_cst_1_apply,
    val_main_v6_apply, val_main_v5_apply, val_main_cst_0_apply, val_main_v4_apply, val_main_v3_apply,
    val_main_v2_apply, val_main_v1_apply, val_main_cst_apply, val_main_v0_apply]
  rfl

/-- Where every entry of the first argument is a real, the reference's result is the gated residual in the product
    arrangement, entry by entry. -/
theorem result_eq (x y : (⟨S64x256x64x64, .f32⟩ : BufTy).Contents (Elt Ideal))
    (hx : ∀ i, ∃ r : ℝ, x i = (r : EReal)) :
    val_main_v10 (F := Ideal) x y = fun i => Cert.GateLaw.gatedProd (x i) (y i) := by
  funext i
  obtain ⟨r, hr⟩ := hx i
  rw [result_apply, hr]
  exact Cert.GateLaw.gatedSum_eq_gatedProd r (y i)

end Cert.ReferenceIdeal.Gated

end
-- ==== Proof.KernelRows.lean ====
/-
  The region's output array, as one function of the two arrays the region reads.

  Inside the region the data are laid out as 16384 rows of 4096 entries. The grid has 64 points; point `t` reads rows
  `256·t … 256·t + 255` of both inputs (whole rows: the second block index is always 0) and writes the same rows of
  the output. The body is entrywise: the entry it stores at a position is `x · (1 + σ(2·(x·m)))` of the two entries it
  loaded at that position. So what point `t` writes back is rows `256·t …` of ONE whole-array function, `rows X M`,
  which applies that scalar function entry by entry; and since row `r` lies in the block of point `r / 256`, the 64
  blocks cover the array, which therefore ends holding `rows X M` everywhere.
-/
import proofs.«127270_j38783554683569_2_alg».proof.Proof.Gen.KernelIdeal.Frame
import proofs.«127270_j38783554683569_2_alg».proof.Proof.GateLaw
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's loads and its store go through the whole staging buffer: both offsets are zero. -/
theorem zero_offsets : (![0, 0] : Fin 2 → Nat) = fun _ => 0 := funext fun a => by fin_cases a <;> rfl

/-- The gated residual applied entry by entry to two arrays in the region's row layout. -/
abbrev rows (X M : S16384x4096.Idx → Elt Ideal .f32) : S16384x4096.Idx → Elt Ideal .f32 :=
  fun i => Cert.GateLaw.gatedProd (X i) (M i)

/-- The stored value at a position of the block is the gated residual of the two loaded entries at that position:
    the body's same-shape casts are identities, and every other operation acts entry by entry. -/
theorem payload_apply (x0 x1 : Vec Ideal S256x4096 .f32) (j : S256x4096.Idx) :
    k0_pay1 (F := Ideal) x0 x1 j = Cert.GateLaw.gatedProd (x0 j) (x1 j) := by
  unfold k0_pay1
  simp only [shapeCast_self]
  rfl

/-- The three index maps agree at every grid point, and the output's is `(t, 0)`. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 63
    ∧ win0_2.index t (1 : Fin 2) = 0 :=
  (by decide +kernel : ∀ t : Fin grid0.N, _)

/-- Every band of 256 rows is some point's block. -/
theorem index_onto : ∀ q : Fin 64, ∃ t : Fin cfg0.N, win0_2.index t = ![q.val, 0] :=
  (by decide +kernel : ∀ q : Fin 64, ∃ t : Fin grid0.N, win0_2.index t = ![q.val, 0])

/-- What point `t` writes back is its band of rows of `rows` of the two input arrays as the region finds them. -/
theorem flushed_rows (c : Dev nD) (t : Fin cfg0.N) :
    (dats m 0 c).flushed 2 t
      = ((cfg0.win 2).blk t).view.read (Elt Ideal) (rows (V m c main_v0) (V m c main_v1)) := by
  show (cfg0.win 2).cut (grid0.coords t) ((dats m 0 c).after 2 t) = _
  rw [after0_2]
  unfold out0_2
  rw [View.canon_unit_zero zero_offsets]
  simp only [View.ld_unit_zero (S := S256x4096) zero_offsets]
  obtain ⟨e0, e1, e2, e3, e4, e5⟩ := index_facts t
  funext j
  show k0_pay1 (iblk m c 0 t) (iblk m c 1 t) j
      = Cert.GateLaw.gatedProd (V m c main_v0 (((cfg0.win 2).blk t).view.emb j)) (V m c main_v1 (((cfg0.win 2).blk t).view.emb j))
  rw [payload_apply]
  show Cert.GateLaw.gatedProd (V m c main_v0 (((cfg0.win 0).blk t).view.emb j)) (V m c main_v1 (((cfg0.win 1).blk t).view.emb j))
      = Cert.GateLaw.gatedProd (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- A position of the array lies in point `t`'s block exactly when each coordinate lies in the block's range. -/
theorem mem_block (t : Fin cfg0.N) (i : S16384x4096.Idx) :
    i ∈ ((cfg0.win 2).blk t).view.set
      ↔ ∀ a : Fin 2, win0_2.index t a * S256x4096.size a ≤ (i a).val
          ∧ (i a).val < win0_2.index t a * S256x4096.size a + S256x4096.size a := by
  show i ∈ ((View.whole main_v2).slice (win0_2.rect t)).set ↔ _
  rw [View.set_slice_whole, Rect.mem_set_unit]
  exact Iff.rfl

/-- Every position is in some point's block: row `r` in the block of the point whose band is `r / 256`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The output array after the region: the gated residual of the two input arrays, entry by entry. -/
theorem final_rows (c : Dev nD) :
    (dats m 0 c).arrAt 2 cfg0.N = rows (V m c main_v0) (V m c main_v1) :=
  (dats m 0 c).arrAt_eq_of_cover 2 _ (fun t _ => flushed_rows m c t) covered

end Cert.KernelIdeal.Rows

end
-- ==== Proof.KernelWhole.lean ====
/-
  The kernel program's result as one function of its two arguments.

  Around the region the program only re-lays data out. Before it, each four-axis argument [64, 256, 64, 64] is reshaped
  to rows [16384, 4096] (and the first is copied into the buffer the output shares with it); after it, the region's
  output array is reshaped back to four axes. A reshape keeps every entry and moves it to the position with the same
  row-major rank, so reshaping there and back is the identity; and because the region's function acts entry by entry,
  applying it to reshaped arrays is reshaping the result of applying it to the original ones. Hence the program's
  result is the gated residual of its two arguments, entry by entry, in the four-axis layout — with no hypothesis on
  the arguments' values.
-/
import proofs.«127270_j38783554683569_2_alg».proof.Proof.Gen.KernelIdeal.Frame
import proofs.«127270_j38783554683569_2_alg».proof.Proof.KernelRows
import Idealize.ShloMosaic.Lib.Pipeline.Value
import Idealize.ShloMosaic.Lib.StableHlo.Run

noncomputable section

namespace Cert.KernelIdeal.Whole

open Cert.KernelIdeal Cert.KernelIdeal.Gen Cert.KernelIdeal.Rows
open Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

/-- The region finds, as its first input, the first argument in the row layout. -/
theorem entry_first (c : Dev nD) :
    (V m c main_v0 : S16384x4096.Idx → Elt Ideal .f32)
      = shapeCast S16384x4096 (m ((c : Thread nD τ).loc main_arg0)) Facts₀.shapeCasts_S64x256x64x64_S16384x4096 := by
  show StableHlo.after hostOps0 (fun b => m (c, b)) (Proc.devRef .tc main_v0) = _
  after_results
  rfl

/-- And, as its second input, the second argument in the row layout. -/
theorem entry_second (c : Dev nD) :
    (V m c main_v1 : S16384x4096.Idx → Elt Ideal .f32)
      = shapeCast S16384x4096 (m ((c : Thread nD τ).loc main_arg1)) Facts₀.shapeCasts_S64x256x64x64_S16384x4096 := by
  show StableHlo.after hostOps0 (fun b => m (c, b)) (Proc.devRef .tc main_v1) = _
  after_results
  rfl

/-- The line after the region reshapes the region's output array, which is `rows` of the region's two inputs. -/
theorem tail_rows (c : Dev nD) :
    Pipeline.afterTail₀ cfgs (dats m) 0 (V0 m) [hostOps1] c main_v3
      = shapeCast S64x256x64x64 (rows (V m c main_v0) (V m c main_v1)) Facts₀.shapeCasts_S16384x4096_S64x256x64x64 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = rows (V m c main_v0) (V m c main_v1) :=
    (Pipeline.withArrays_arr spec0 launch0.win.arr_inj c _ _ 2).trans (final_rows m c)
  rw [hw]
  rfl

/-- Reshaping to rows, applying the entrywise function, and reshaping back is applying it in the four-axis layout. -/
theorem rows_round_trip (x y : S64x256x64x64.Idx → Elt Ideal .f32) :
    shapeCast S64x256x64x64
        (rows (shapeCast S16384x4096 x Facts₀.shapeCasts_S64x256x64x64_S16384x4096)
              (shapeCast S16384x4096 y Facts₀.shapeCasts_S64x256x64x64_S16384x4096))
        Facts₀.shapeCasts_S16384x4096_S64x256x64x64
      = fun i => Cert.GateLaw.gatedProd (x i) (y i) :=
  shapeCast_shapeCast (fun i => Cert.GateLaw.gatedProd (x i) (y i))
    Facts₀.shapeCasts_S64x256x64x64_S16384x4096 Facts₀.shapeCasts_S16384x4096_S64x256x64x64

/-- The program's result buffer after the run, as the tail computes it: the gated residual of the two arguments. -/
theorem tail_value (c : Dev nD) :
    Pipeline.afterTail₀ cfgs (dats m) 0 (V0 m) [hostOps1] c main_v3
      = fun i => Cert.GateLaw.gatedProd (m ((c : Thread nD τ).loc main_arg0) i) (m ((c : Thread nD τ).loc main_arg1) i) := by
  rw [tail_rows, entry_first, entry_second]
  exact rows_round_trip _ _

/-- Every weakly fair execution of the kernel program ends with its result at the gated residual of the arguments,
    entry by entry, and the arguments as launched. -/
theorem run : θ_run defs (onTc (τ := τ) (main (F := Ideal))) ⟨m, fun _ => 0, ρ⟩ fun r => ∀ c : Dev nD,
      r.2.mem ((c.tc : Thread nD τ).loc main_v3)
        = (fun i => Cert.GateLaw.gatedProd (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.lean ====
/-
  Two programs for a sigmoid-gated residual over f32[64, 256, 64, 64] arrays `x` and `m`, compared on the extended
  reals.

  With `g = σ(2·(x·m))` entry by entry, `σ z = 1 / (1 + e^(-z))`:
    * the kernel program reshapes both arguments to 16384 rows of 4096, lets a 64-point grid compute
      `x · (1 + g)` on bands of 256 rows (the sigmoid as one logistic operation), and reshapes the result back;
    * the reference computes `x + x · g` on the four-axis arrays, the sigmoid spelt out as negate, exponential,
      add and divide.
  The logistic operation is by definition that quotient, so `g` is the same term on both sides, and the constants
  `1` and `2` are the same binary32 words. The reshapes cancel because the grid's function acts entry by entry. What
  remains is `x · (1 + g) = x + x · g`: left distributivity, which on the extended reals needs the multiplier `x`
  to be finite (then it holds for every `g`, infinite or not). That is the one place the precondition is used,
  and only its half about the first argument.

  The three runs: the kernel programs' frames are the generated ones; the reference's frame is its generated run
  with the result forgotten. No operation was rewritten between the kernel program and its idealization, so that
  conjunct is trivial.
-/
import proofs.«127270_j38783554683569_2_alg».proof.Defs
import proofs.«127270_j38783554683569_2_alg».proof.Proof.Gen.Kernel
import proofs.«127270_j38783554683569_2_alg».proof.Proof.Gen.Kernel.Skeleton
import proofs.«127270_j38783554683569_2_alg».proof.Proof.Gen.Kernel.Launch
import proofs.«127270_j38783554683569_2_alg».proof.Proof.Gen.Kernel.Points
import proofs.«127270_j38783554683569_2_alg».proof.Proof.Gen.Kernel.Frame
import proofs.«127270_j38783554683569_2_alg».proof.Proof.Gen.KernelIdeal
import proofs.«127270_j38783554683569_2_alg».proof.Proof.Gen.KernelIdeal.Skeleton
import proofs.«127270_j38783554683569_2_alg».proof.Proof.Gen.KernelIdeal.Launch
import proofs.«127270_j38783554683569_2_alg».proof.Proof.Gen.KernelIdeal.Points
import proofs.«127270_j38783554683569_2_alg».proof.Proof.Gen.KernelIdeal.Frame
import proofs.«127270_j38783554683569_2_alg».proof.Proof.Gen.ReferenceIdeal
import proofs.«127270_j38783554683569_2_alg».proof.Proof.Gen.Pre_finite_inputs
import proofs.«127270_j38783554683569_2_alg».proof.Proof.Gen.ReferenceIdeal.Run
import proofs.«127270_j38783554683569_2_alg».proof.Proof.Gen.ReferenceIdeal.Read
import proofs.«127270_j38783554683569_2_alg».proof.Proof.GateLaw
import proofs.«127270_j38783554683569_2_alg».proof.Proof.FiniteFirst
import proofs.«127270_j38783554683569_2_alg».proof.Proof.ReferenceGated
import proofs.«127270_j38783554683569_2_alg».proof.Proof.KernelRows
import proofs.«127270_j38783554683569_2_alg».proof.Proof.KernelWhole
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ,
    fun m ρ _ => (θ_run Cert.ReferenceIdeal.defs _ _).mono (fun _ h c => (h c).2)
      (Cert.ReferenceIdeal.Value.run (F := Ideal) m ρ),
    trivial, ?_⟩
  -- both programs end at the gated residual of the kernel program's arguments
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  -- the first argument's entries are real under the precondition, so the sum arrangement is the product one
  exact Cert.ReferenceIdeal.Gated.result_eq _ _ (Cert.FiniteFirst.first_real _ _ (hpre c))⟩

end Cert.Proof

end
